-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x512 : Shape := ⟨2, ![64, 512]⟩
abbrev S256x4096 : Shape := ⟨2, ![256, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg5 : FVec F S4096x4096 .f32) (main_arg6 : FVec F S4096 .f32) (main_arg7 : FVec F S4096x1024 .f32) (main_arg8 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg5
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x1024 .f32 := Host.absf main_arg7
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg8 main_v33

def fn {F : FTy → Type} [FloatOps F] (main_arg0 : FVec F S64x512x128 .f32) (main_arg1 : FVec F S64x512x128 .f32) (main_arg2 : IVec S64x512 1) (main_arg3 : FVec F S256x4096 .f32) (main_arg4 : FVec F S4096 .f32) (main_arg5 : FVec F S4096x4096 .f32) (main_arg6 : FVec F S4096 .f32) (main_arg7 : FVec F S4096x1024 .f32) (main_arg8 : FVec F S1024 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S64x512x128 .f32 := Host.absf main_arg1
  let main_cst_0 : FVec F S_ .f32 := constant S_ .f32 0x7F800000#32
  let main_v5 : FVec F S64x512x128 .f32 := broadcastInDim S64x512x128 ![] bcast_S_S64x512x128 main_cst_0
  let main_v6 : IVec S64x512x128 1 := cmpf .olt main_v4 main_v5
  let main_c_1 : IVec S_ 1 := constantI S_ 1 1#1
  let main_v7 : IVec S_ 1 := (fun x v => Host.reduce IntOp.andi x v reducesTo_S64x512x128_S_d0_1_2 h_S_) main_v6 main_c_1
  let main_v8 : IVec S_ 1 := andi main_v3 main_v7
  let main_v9 : FVec F S256x4096 .f32 := Host.absf main_arg3
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_arg7 main_arg8 main_v13 main_v16
-- ==== Kernel.lean ====
abbrev S64x512x128 : Shape := ⟨3, ![64, 512, 128]⟩
abbrev S64x512 : Shape := ⟨2, ![64, 512]⟩
abbrev S256x4096 : Shape := ⟨2, ![256, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S64x512x256 : Shape := ⟨3, ![64, 512, 256]⟩
abbrev S32768x256 : Shape := ⟨2, ![32768, 256]⟩
abbrev S32768x1 : Shape := ⟨2, ![32768, 1]⟩
abbrev S1x4096 : Shape := ⟨2, ![1, 4096]⟩
abbrev S1x1024 : Shape := ⟨2, ![1, 1024]⟩
abbrev S64x8x1024 : Shape := ⟨3, ![64, 8, 1024]⟩
abbrev S512x256 : Shape := ⟨2, ![512, 256]⟩
abbrev S256x512 : Shape := ⟨2, ![256, 512]⟩
abbrev S1x512 : Shape := ⟨2, ![1, 512]⟩
abbrev S512x4096 : Shape := ⟨2, ![512, 4096]⟩
abbrev S512x1 : Shape := ⟨2, ![512, 1]⟩
abbrev S1x8x1024 : Shape := ⟨3, ![1, 8, 1024]⟩
abbrev S512x512 : Shape := ⟨2, ![512, 512]⟩
abbrev S512x1024 : Shape := ⟨2, ![512, 1024]⟩
abbrev S1x1x1024 : Shape := ⟨3, ![1, 1, 1024]⟩
abbrev S64x1x1024 : Shape := ⟨3, ![64, 1, 1024]⟩
abbrev S64x1024 : Shape := ⟨2, ![64, 1024]⟩
abbrev S_ : Shape := ⟨0, ![]⟩
abbrev S64 : Shape := ⟨1, ![64]⟩
abbrev S64x1 : Shape := ⟨2, ![64, 1]⟩

abbrev nBuf : Space → Nat
  | .hbm => 32
  | .vmem => 16
  | .smem => 0
  | _ => 0

abbrev bufTy : (tb : Table) → Fin (tcTables nBuf tb) → BufTy
  | .hbm, ⟨0, _⟩ => ⟨S64x512x128, .f32⟩
  | .hbm, ⟨1, _⟩ => ⟨S64x512x128, .f32⟩
  | .hbm, ⟨2, _⟩ => ⟨S64x512, .i1⟩
  | .hbm, ⟨3, _⟩ => ⟨S256x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x1024, .f32⟩
  | .hbm, ⟨8, _⟩ => ⟨S1024, .f32⟩
  | .hbm, ⟨9, _⟩ => ⟨S64x512x256, .f32⟩
  | .hbm, ⟨10, _⟩ => ⟨S32768x256, .f32⟩
  | .hbm, ⟨11, _⟩ => ⟨S32768x256, .bf16⟩
  | .hbm, ⟨12, _⟩ => ⟨S32768x1, .i1⟩
  | .hbm, ⟨13, _⟩ => ⟨S32768x1, .f32⟩
  | .hbm, ⟨14, _⟩ => ⟨S256x4096, .bf16⟩
  | .hbm, ⟨15, _⟩ => ⟨S4096x4096, .bf16⟩
  | .hbm, ⟨16, _⟩ => ⟨S4096x1024, .bf16⟩
  | .hbm, ⟨17, _⟩ => ⟨S1x4096, .f32⟩
  | .hbm, ⟨18, _⟩ => ⟨S1x4096, .f32⟩
  | .hbm, ⟨19, _⟩ => ⟨S1x1024, .f32⟩
  | .hbm, ⟨20, _⟩ => ⟨S64x8x1024, .f32⟩
  | .hbm, ⟨21, _⟩ => ⟨S64x1x1024, .f32⟩
  | .hbm, ⟨22, _⟩ => ⟨S64x1024, .f32⟩
  | .hbm, ⟨23, _⟩ => ⟨S64x512, .f32⟩
  | .hbm, ⟨24, _⟩ => ⟨S_, .f32⟩
  | .hbm, ⟨25, _⟩ => ⟨S64, .f32⟩
  | .hbm, ⟨26, _⟩ => ⟨S64x1, .f32⟩
  | .hbm, ⟨27, _⟩ => ⟨S_, .f32⟩
  | .hbm, ⟨28, _⟩ => ⟨S64x1, .f32⟩
  | .hbm, ⟨29, _⟩ => ⟨S64x1, .f32⟩
  | .hbm, ⟨30, _⟩ => ⟨S64x1024, .f32⟩
  | .hbm, ⟨31, _⟩ => ⟨S64x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S1x512, .f32⟩
  | .local _ .vmem, ⟨5, _⟩ => ⟨S1x512, .f32⟩
  | .local _ .vmem, ⟨6, _⟩ => ⟨S512x4096, .bf16⟩
  | .local _ .vmem, ⟨7, _⟩ => ⟨S512x4096, .bf16⟩
  | .local _ .vmem, ⟨8, _⟩ => ⟨S1x4096, .f32⟩
  | .local _ .vmem, ⟨9, _⟩ => ⟨S4096x1024, .bf16⟩
  | .local _ .vmem, ⟨10, _⟩ => ⟨S1x1024, .f32⟩
  | .local _ .vmem, ⟨11, _⟩ => ⟨S512x1, .f32⟩
  | .local _ .vmem, ⟨12, _⟩ => ⟨S512x1, .f32⟩
  | .local _ .vmem, ⟨13, _⟩ => ⟨S1x8x1024, .f32⟩
  | .local _ .vmem, ⟨14, _⟩ => ⟨S1x8x1024, .f32⟩
  | .local _ .vmem, ⟨15, _⟩ => ⟨S512x4096, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  concatenates_S64x512x128_S64x512x128_S64x512x256_d2 : Shape.Concatenates [S64x512x128, S64x512x128] S64x512x256 2
  shapeCasts_S64x512x256_S32768x256 : S64x512x256.ShapeCasts S32768x256
  bitsLt_bf16_f32 : FTy.bits .bf16 < FTy.bits .f32
  shapeCasts_S64x512_S32768x1 : S64x512.ShapeCasts S32768x1
  shapeCasts_S4096_S1x4096 : S4096.ShapeCasts S1x4096
  shapeCasts_S1024_S1x1024 : S1024.ShapeCasts S1x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  reduces_S512x1024_S1024 : S512x1024.Reduces [0] S1024
  shapeCasts_S1x1024_S1x1x1024 : S1x1024.ShapeCasts S1x1x1024
  shapeCasts_S1x1x1024_S1x1x1024 : S1x1x1024.ShapeCasts S1x1x1024
  broadcasts_S1x1x1024_S1x8x1024 : S1x1x1024.Broadcasts S1x8x1024
  inb_S1x8x1024_S1x8x1024_0_0_0 : ∀ a, (![0, 0, 0] : Fin 3 → Nat) a + S1x8x1024.size a ≤ S1x8x1024.size a
  h_S1x8x1024 : 0 < S1x8x1024.numel
  slices_S64x8x1024_S64x1x1024_0_0_0 : S64x8x1024.Slices ![0, 0, 0] S64x1x1024
  shapeCasts_S64x1x1024_S64x1024 : S64x1x1024.ShapeCasts S64x1024
  reducesTo_S64x512_S64_d1 : S64x512.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1024_0_1 : S64x1.BroadcastsInDim S64x1024 (![0, 1] : Fin 2 → Fin S64x1024.rank)
  dot_S512x256_S256x512_S512x512_1_0_0_1_n_n_wf : DotDims.WF S512x256 S256x512 S512x512 [1] [0] [0] [1] [] []
  dot_S512x512_S512x4096_S512x4096_1_0_0_1_n_n_wf : DotDims.WF S512x512 S512x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .bf16 = 32 ∨ (Rect.block (s := S32768x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x4096.size a
  hwx0_1 : ∀ i : grid0.Coords, EltTy.bits .bf16 = 32 ∨ (Rect.block (s := S256x4096) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S32768x1.size a
  hwx0_7 : ∀ i : grid0.Coords, EltTy.bits .f32 = 32 ∨ (Rect.block (s := S32768x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x1024.size a ≤ S64x8x1024.size a
  hwx0_8 : ∀ i : grid0.Coords, EltTy.bits .f32 = 32 ∨ (Rect.block (s := S64x8x1024) S1x8x1024.size (cc0_transform_8 i) (hinb0_8 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v2) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x8x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S64x512x128 : Shape := ⟨3, ![64, 512, 128]⟩
abbrev S64x512 : Shape := ⟨2, ![64, 512]⟩
abbrev S256x4096 : Shape := ⟨2, ![256, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S64x512x256 : Shape := ⟨3, ![64, 512, 256]⟩
abbrev S64x512x4096 : Shape := ⟨3, ![64, 512, 4096]⟩
abbrev S1x1x4096 : Shape := ⟨3, ![1, 1, 4096]⟩
abbrev S_ : Shape := ⟨0, ![]⟩
abbrev S64x512x1024 : Shape := ⟨3, ![64, 512, 1024]⟩
abbrev S1x1x1024 : Shape := ⟨3, ![1, 1, 1024]⟩
abbrev S64x512x1 : Shape := ⟨3, ![64, 512, 1]⟩
abbrev S64x1 : Shape := ⟨2, ![64, 1]⟩
abbrev S64x1024 : Shape := ⟨2, ![64, 1024]⟩

abbrev nBuf : Space → Nat
  | .hbm => 41
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x512x128, .f32⟩
  | .hbm, ⟨2, _⟩ => ⟨S64x512, .i1⟩
  | .hbm, ⟨3, _⟩ => ⟨S256x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x1024, .f32⟩
  | .hbm, ⟨8, _⟩ => ⟨S1024, .f32⟩
  | .hbm, ⟨9, _⟩ => ⟨S64x512x256, .f32⟩
  | .hbm, ⟨10, _⟩ => ⟨S64x512x4096, .f32⟩
  | .hbm, ⟨11, _⟩ => ⟨S1x1x4096, .f32⟩
  | .hbm, ⟨12, _⟩ => ⟨S64x512x4096, .f32⟩
  | .hbm, ⟨13, _⟩ => ⟨S64x512x4096, .f32⟩
  | .hbm, ⟨14, _⟩ => ⟨S_, .f32⟩
  | .hbm, ⟨15, _⟩ => ⟨S64x512x4096, .f32⟩
  | .hbm, ⟨16, _⟩ => ⟨S64x512x4096, .f32⟩
  | .hbm, ⟨17, _⟩ => ⟨S64x512x4096, .f32⟩
  | .hbm, ⟨18, _⟩ => ⟨S1x1x4096, .f32⟩
  | .hbm, ⟨19, _⟩ => ⟨S64x512x4096, .f32⟩
  | .hbm, ⟨20, _⟩ => ⟨S64x512x4096, .f32⟩
  | .hbm, ⟨21, _⟩ => ⟨S_, .f32⟩
  | .hbm, ⟨22, _⟩ => ⟨S64x512x4096, .f32⟩
  | .hbm, ⟨23, _⟩ => ⟨S64x512x4096, .f32⟩
  | .hbm, ⟨24, _⟩ => ⟨S64x512x1024, .f32⟩
  | .hbm, ⟨25, _⟩ => ⟨S1x1x1024, .f32⟩
  | .hbm, ⟨26, _⟩ => ⟨S64x512x1024, .f32⟩
  | .hbm, ⟨27, _⟩ => ⟨S64x512x1024, .f32⟩
  | .hbm, ⟨28, _⟩ => ⟨S64x512, .f32⟩
  | .hbm, ⟨29, _⟩ => ⟨S64x512x1, .f32⟩
  | .hbm, ⟨30, _⟩ => ⟨S_, .f32⟩
  | .hbm, ⟨31, _⟩ => ⟨S64x1, .f32⟩
  | .hbm, ⟨32, _⟩ => ⟨S_, .f32⟩
  | .hbm, ⟨33, _⟩ => ⟨S64x1, .f32⟩
  | .hbm, ⟨34, _⟩ => ⟨S64x1, .f32⟩
  | .hbm, ⟨35, _⟩ => ⟨S64x512x1024, .f32⟩
  | .hbm, ⟨36, _⟩ => ⟨S64x512x1024, .f32⟩
  | .hbm, ⟨37, _⟩ => ⟨S_, .f32⟩
  | .hbm, ⟨38, _⟩ => ⟨S64x1024, .f32⟩
  | .hbm, ⟨39, _⟩ => ⟨S64x1024, .f32⟩
  | .hbm, ⟨40, _⟩ => ⟨S64x1024, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_cst : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  concatenates_S64x512x128_S64x512x128_S64x512x256_d2 : Shape.Concatenates [S64x512x128, S64x512x128] S64x512x256 2
  bcast_S4096_S1x1x4096_2 : S4096.BroadcastsInDim S1x1x4096 (![2] : Fin 1 → Fin S1x1x4096.rank)
  bcast_S1x1x4096_S64x512x4096_0_1_2 : S1x1x4096.BroadcastsInDim S64x512x4096 (![0, 1, 2] : Fin 3 → Fin S64x512x4096.rank)
  bcast_S_S64x512x4096 : S_.BroadcastsInDim S64x512x4096 (![] : Fin 0 → Fin S64x512x4096.rank)
  bcast_S1024_S1x1x1024_2 : S1024.BroadcastsInDim S1x1x1024 (![2] : Fin 1 → Fin S1x1x1024.rank)
  bcast_S1x1x1024_S64x512x1024_0_1_2 : S1x1x1024.BroadcastsInDim S64x512x1024 (![0, 1, 2] : Fin 3 → Fin S64x512x1024.rank)
  bcast_S64x512_S64x512x1_0_1 : S64x512.BroadcastsInDim S64x512x1 (![0, 1] : Fin 2 → Fin S64x512x1.rank)
  reducesTo_S64x512x1_S64x1_d1 : S64x512x1.ReducesTo [1] S64x1
  h_S_ : 0 < S_.numel
  bcast_S_S64x1 : S_.BroadcastsInDim S64x1 (![] : Fin 0 → Fin S64x1.rank)
  bcast_S64x512x1_S64x512x1024_0_1_2 : S64x512x1.BroadcastsInDim S64x512x1024 (![0, 1, 2] : Fin 3 → Fin S64x512x1024.rank)
  reducesTo_S64x512x1024_S64x1024_d1 : S64x512x1024.ReducesTo [1] S64x1024
  bcast_S64x1_S64x1024_0_1 : S64x1.BroadcastsInDim S64x1024 (![0, 1] : Fin 2 → Fin S64x1024.rank)
  dot_S64x512x256_S256x4096_S64x512x4096_2_0_01_1_n_n_wf : DotDims.WF S64x512x256 S256x4096 S64x512x4096 [2] [0] [0, 1] [1] [] []
  dot_S64x512x4096_S4096x4096_S64x512x4096_2_0_01_1_n_n_wf : DotDims.WF S64x512x4096 S4096x4096 S64x512x4096 [2] [0] [0, 1] [1] [] []
  dot_S64x512x4096_S4096x1024_S64x512x1024_2_0_01_1_n_n_wf : DotDims.WF S64x512x4096 S4096x1024 S64x512x1024 [2] [0] [0, 1] [1] [] []

variable [Facts₀]

def dot_S64x512x256_S256x4096_S64x512x4096_2_0_01_1_n_n : DotDims S64x512x256 S256x4096 S64x512x4096 where
  lhsContracting := [2]
  rhsContracting := [0]
  lhsNonContracting := [0, 1]
  rhsNonContracting := [1]
  lhsBatch := []
  rhsBatch := []
  wf := dot_S64x512x256_S256x4096_S64x512x4096_2_0_01_1_n_n_wf
def dot_S64x512x4096_S4096x4096_S64x512x4096_2_0_01_1_n_n : DotDims S64x512x4096 S4096x4096 S64x512x4096 where
  lhsContracting := [2]
  rhsContracting := [0]
  lhsNonContracting := [0, 1]
  rhsNonContracting := [1]
  lhsBatch := []
  rhsBatch := []
  wf := dot_S64x512x4096_S4096x4096_S64x512x4096_2_0_01_1_n_n_wf
def dot_S64x512x4096_S4096x1024_S64x512x1024_2_0_01_1_n_n : DotDims S64x512x4096 S4096x1024 S64x512x1024 where
  lhsContracting := [2]
  rhsContracting := [0]
  lhsNonContracting := [0, 1]
  rhsNonContracting := [1]
  lhsBatch := []
  rhsBatch := []
  wf := dot_S64x512x4096_S4096x1024_S64x512x1024_2_0_01_1_n_n_wf

class Facts : Prop extends Facts₀ where

variable [Facts]
-- ==== Proof.Pieces.lean ====
/-
  What the kernel's body leaves behind, case by case, as values.

  The body runs in one of three cases, by the position k of the grid point on the contraction axis: at k = 0 it
  stores the zero block into the accumulator and then adds the first block's contribution; at 0 < k < 7 it adds
  one more block's contribution to what the point before left; at k = 7 it does the same and then computes the
  batch's masked sum from the finished accumulator. Each case's stores cover their buffers whole, so the buffers
  end at the stored values: the accumulator at the step function of the point's input blocks and the previous
  accumulator (the zero block at k = 0), the output block at the epilogue of the accumulator just stored.
  Every statement holds for any float values, not only the ideal ones.
-/
import proofs.«180502_j38087769981504_2_alg».proof.Proof.Gen.KernelIdeal.Frame
import Idealize.ShloMosaic.Lib.Pipeline.Value
import Idealize.ShloMosaic.Lib.Tactic

noncomputable section

namespace Cert.MLP.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point (0 < k < 7) leaves the accumulator at the step of its blocks over the previous accumulator. -/
theorem sout_B (c : Dev nD) (i : grid0.Coords) (arg2 : Memref sig .tc .vmem S512x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S512x1 .f32) (harg9 : arg9.IsWhole) (arg10 : Memref sig .tc .vmem S1x8x1024 .f32) (harg10 : arg10.IsWhole) (arg11 : Memref sig .tc .vmem S512x4096 .f32) (harg11 : arg11.IsWhole) (hc0 : ¬cond0_0 i) (hc1 : ¬cond0_1 i)
    (x0 : Vec F S512x256 .bf16) (x1 : Vec F S256x512 .bf16) (x2 : Vec F S1x512 .f32) (x3 : Vec F S512x4096 .bf16) (x4 : Vec F S1x4096 .f32) (x5 : Vec F S4096x1024 .bf16) (x6 : Vec F S1x1024 .f32) (x7 : Vec F S512x1 .f32) (xs0 : Vec F S512x4096 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  rw [View.canon_unit_zero hz2]
  simp only [View.readAt_eq_ld, harg2.read_unread, harg3.read_unread, harg4.read_unread, harg5.read_unread, harg6.read_unread,
    harg7.read_unread, harg8.read_unread, harg9.read_unread, harg11.read_unread,
    View.ld_unit_zero (S := S512x256) hz2, View.ld_unit_zero (S := S256x512) hz2, View.ld_unit_zero (S := S1x512) hz2,
    View.ld_unit_zero (S := S512x4096) hz2, View.ld_unit_zero (S := S1x4096) hz2, View.ld_unit_zero (S := S4096x1024) hz2,
    View.ld_unit_zero (S := S1x1024) hz2, View.ld_unit_zero (S := S512x1) hz2]

/-- The first point (k = 0) stores the zero block, reads it back, and leaves the step of its blocks over it. -/
theorem sout_A (c : Dev nD) (i : grid0.Coords) (arg2 : Memref sig .tc .vmem S512x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S512x1 .f32) (harg9 : arg9.IsWhole) (arg10 : Memref sig .tc .vmem S1x8x1024 .f32) (harg10 : arg10.IsWhole) (arg11 : Memref sig .tc .vmem S512x4096 .f32) (harg11 : arg11.IsWhole) (hc0 : cond0_0 i) (hc1 : ¬cond0_1 i)
    (x0 : Vec F S512x256 .bf16) (x1 : Vec F S256x512 .bf16) (x2 : Vec F S1x512 .f32) (x3 : Vec F S512x4096 .bf16) (x4 : Vec F S1x4096 .f32) (x5 : Vec F S4096x1024 .bf16) (x6 : Vec F S1x1024 .f32) (x7 : Vec F S512x1 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S512x4096) hz2, View.readCov_unit_zero (S := S512x4096) _ hz2]
  simp only [View.readAt_eq_ld, harg2.read_unread, harg3.read_unread, harg4.read_unread, harg5.read_unread, harg6.read_unread,
    harg7.read_unread, harg8.read_unread, harg9.read_unread, harg11.read_unread,
    View.ld_unit_zero (S := S512x256) hz2, View.ld_unit_zero (S := S256x512) hz2, View.ld_unit_zero (S := S1x512) hz2,
    View.ld_unit_zero (S := S512x4096) hz2, View.ld_unit_zero (S := S1x4096) hz2, View.ld_unit_zero (S := S4096x1024) hz2,
    View.ld_unit_zero (S := S1x1024) hz2, View.ld_unit_zero (S := S512x1) hz2]

/-- The last point (k = 7) leaves the accumulator at the same step, -/
theorem sout_C (c : Dev nD) (i : grid0.Coords) (arg2 : Memref sig .tc .vmem S512x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S512x1 .f32) (harg9 : arg9.IsWhole) (arg10 : Memref sig .tc .vmem S1x8x1024 .f32) (harg10 : arg10.IsWhole) (arg11 : Memref sig .tc .vmem S512x4096 .f32) (harg11 : arg11.IsWhole) (hc0 : ¬cond0_0 i) (hc1 : cond0_1 i)
    (x0 : Vec F S512x256 .bf16) (x1 : Vec F S256x512 .bf16) (x2 : Vec F S1x512 .f32) (x3 : Vec F S512x4096 .bf16) (x4 : Vec F S1x4096 .f32) (x5 : Vec F S4096x1024 .bf16) (x6 : Vec F S1x1024 .f32) (x7 : Vec F S512x1 .f32) (xs0 : Vec F S512x4096 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg11.read_unread,
    View.ld_unit_zero (S := S512x256) hz2, View.ld_unit_zero (S := S256x512) hz2, View.ld_unit_zero (S := S1x512) hz2,
    View.ld_unit_zero (S := S512x4096) hz2, View.ld_unit_zero (S := S1x4096) hz2, View.ld_unit_zero (S := S4096x1024) hz2,
    View.ld_unit_zero (S := S1x1024) hz2, View.ld_unit_zero (S := S512x1) hz2]

/-- and the output block at the epilogue of that finished accumulator. -/
theorem out_C (c : Dev nD) (i : grid0.Coords) (arg2 : Memref sig .tc .vmem S512x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S512x1 .f32) (harg9 : arg9.IsWhole) (arg10 : Memref sig .tc .vmem S1x8x1024 .f32) (harg10 : arg10.IsWhole) (arg11 : Memref sig .tc .vmem S512x4096 .f32) (harg11 : arg11.IsWhole) (hc0 : ¬cond0_0 i) (hc1 : cond0_1 i)
    (x0 : Vec F S512x256 .bf16) (x1 : Vec F S256x512 .bf16) (x2 : Vec F S1x512 .f32) (x3 : Vec F S512x4096 .bf16) (x4 : Vec F S1x4096 .f32) (x5 : Vec F S4096x1024 .bf16) (x6 : Vec F S1x1024 .f32) (x7 : Vec F S512x1 .f32) (xs0 : Vec F S512x4096 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 (k0_pay2 x0 x1 x2 x3 xs0) x4 x5 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz3, View.readCov_unit_zero (S := S512x4096) _ hz2]
  simp only [View.readAt_eq_ld, harg2.read_unread, harg3.read_unread, harg4.read_unread, harg5.read_unread, harg6.read_unread,
    harg7.read_unread, harg8.read_unread, harg9.read_unread, harg11.read_unread,
    View.ld_unit_zero (S := S512x256) hz2, View.ld_unit_zero (S := S256x512) hz2, View.ld_unit_zero (S := S1x512) hz2,
    View.ld_unit_zero (S := S512x4096) hz2, View.ld_unit_zero (S := S1x4096) hz2, View.ld_unit_zero (S := S4096x1024) hz2,
    View.ld_unit_zero (S := S1x1024) hz2, View.ld_unit_zero (S := S512x1) hz2]

end Cert.MLP.Pieces

end
-- ==== Proof.Spec.lean ====
/-
  The function both programs compute, written once over coordinates.

  For a batch b and a token n the input row is the 256 numbers x[b,n,·] followed by y[b,n,·]; three dense layers
  follow, the first two clipped below at zero:
      h1[b,n,j] = max (Σ_d row[b,n,d] · W1[d,j] + b1[j]) 0          (j < 4096)
      h2[b,n,c] = max (Σ_j h1[b,n,j] · W2[j,c] + b2[c]) 0           (c < 4096)
      r [b,n,q] =      Σ_c h2[b,n,c] · W3[c,q] + b3[q]               (q < 1024)
  and the result is the masked mean over the tokens of a batch,
      out[b,q] = (Σ_n r[b,n,q] · m[b,n]) / max (0 + Σ_n m[b,n]) 1,   m[b,n] the mask bit read as a number.
  Everything is on the extended reals; the two float words that occur (zero and one) are kept as words.
-/
import Idealize.ShloMosaic.Lib.ValueIdx
import Idealize.ShloMosaic.PureOps.Ideal

noncomputable section

namespace Cert.MLP

open Idealize.ShloMosaic Idealize.ShloMosaic.ValueIdx

/-- The word of the float zero, read on the extended reals. -/
abbrev Z : EReal := Ideal.ofBits .f32 0x00000000#32
/-- The word of the float one, read on the extended reals. -/
abbrev One : EReal := Ideal.ofBits .f32 0x3F800000#32

/-- The input row of token (b, n): x's 128 numbers, then y's. -/
def row (x y : (⟨3, ![64, 512, 128]⟩ : Shape).Idx → EReal) (b : Fin 64) (n : Fin 512) (d : Fin 256) : EReal :=
  if h : d.val < 128 then x (ix3 b n ⟨d.val, h⟩) else y (ix3 b n ⟨d.val - 128, by have := d.isLt; omega⟩)

/-- The first layer, clipped at zero. -/
def h1 (x y : (⟨3, ![64, 512, 128]⟩ : Shape).Idx → EReal) (W1 : (⟨2, ![256, 4096]⟩ : Shape).Idx → EReal)
    (b1 : (⟨1, ![4096]⟩ : Shape).Idx → EReal) (b : Fin 64) (n : Fin 512) (j : Fin 4096) : EReal :=
  max ((∑ d : Fin 256, row x y b n d * W1 (ix2 d j)) + b1 (ix1 j)) Z

/-- The second layer, clipped at zero. -/
def h2 (x y : (⟨3, ![64, 512, 128]⟩ : Shape).Idx → EReal) (W1 : (⟨2, ![256, 4096]⟩ : Shape).Idx → EReal)
    (b1 : (⟨1, ![4096]⟩ : Shape).Idx → EReal) (W2 : (⟨2, ![4096, 4096]⟩ : Shape).Idx → EReal)
    (b2 : (⟨1, ![4096]⟩ : Shape).Idx → EReal) (b : Fin 64) (n : Fin 512) (c : Fin 4096) : EReal :=
  max ((∑ j : Fin 4096, h1 x y W1 b1 b n j * W2 (ix2 j c)) + b2 (ix1 c)) Z

/-- The third layer. -/
def r (x y : (⟨3, ![64, 512, 128]⟩ : Shape).Idx → EReal) (W1 : (⟨2, ![256, 4096]⟩ : Shape).Idx → EReal)
    (b1 : (⟨1, ![4096]⟩ : Shape).Idx → EReal) (W2 : (⟨2, ![4096, 4096]⟩ : Shape).Idx → EReal)
    (b2 : (⟨1, ![4096]⟩ : Shape).Idx → EReal) (W3 : (⟨2, ![4096, 1024]⟩ : Shape).Idx → EReal)
    (b3 : (⟨1, ![1024]⟩ : Shape).Idx → EReal) (b : Fin 64) (n : Fin 512) (q : Fin 1024) : EReal :=
  (∑ c : Fin 4096, h2 x y W1 b1 W2 b2 b n c * W3 (ix2 c q)) + b3 (ix1 q)

/-- The mask bit of token (b, n) as a number: 0 or 1. -/
def mf (mask : (⟨2, ![64, 512]⟩ : Shape).Idx → BitVec 1) (b : Fin 64) (n : Fin 512) : EReal :=
  FloatOps.uitofp (F := Ideal) .f32 (mask (ix2 b n))

/-- The masked sum over a batch's tokens. -/
def num (x y : (⟨3, ![64, 512, 128]⟩ : Shape).Idx → EReal) (mask : (⟨2, ![64, 512]⟩ : Shape).Idx → BitVec 1)
    (W1 : (⟨2, ![256, 4096]⟩ : Shape).Idx → EReal)
    (b1 : (⟨1, ![4096]⟩ : Shape).Idx → EReal) (W2 : (⟨2, ![4096, 4096]⟩ : Shape).Idx → EReal)
    (b2 : (⟨1, ![4096]⟩ : Shape).Idx → EReal) (W3 : (⟨2, ![4096, 1024]⟩ : Shape).Idx → EReal)
    (b3 : (⟨1, ![1024]⟩ : Shape).Idx → EReal) (b : Fin 64) (q : Fin 1024) : EReal :=
  ∑ n : Fin 512, r x y W1 b1 W2 b2 W3 b3 b n q * mf mask b n

/-- The number of unmasked tokens of a batch, at least one. -/
def cnt (mask : (⟨2, ![64, 512]⟩ : Shape).Idx → BitVec 1) (b : Fin 64) : EReal :=
  max (Z + ∑ n : Fin 512, mf mask b n) One

/-- The result: the masked mean, batch by batch and feature by feature. -/
def G (x y : (⟨3, ![64, 512, 128]⟩ : Shape).Idx → EReal) (mask : (⟨2, ![64, 512]⟩ : Shape).Idx → BitVec 1)
    (W1 : (⟨2, ![256, 4096]⟩ : Shape).Idx → EReal)
    (b1 : (⟨1, ![4096]⟩ : Shape).Idx → EReal) (W2 : (⟨2, ![4096, 4096]⟩ : Shape).Idx → EReal)
    (b2 : (⟨1, ![4096]⟩ : Shape).Idx → EReal) (W3 : (⟨2, ![4096, 1024]⟩ : Shape).Idx → EReal)
    (b3 : (⟨1, ![1024]⟩ : Shape).Idx → EReal) : (⟨2, ![64, 1024]⟩ : Shape).Idx → EReal :=
  fun i => Ideal.div (num x y mask W1 b1 W2 b2 W3 b3 (i 0) (i 1)) (cnt mask (i 0))

/-- The result at batch b and feature q. -/
theorem G_apply (x y : (⟨3, ![64, 512, 128]⟩ : Shape).Idx → EReal) (mask : (⟨2, ![64, 512]⟩ : Shape).Idx → BitVec 1)
    (W1 : (⟨2, ![256, 4096]⟩ : Shape).Idx → EReal)
    (b1 : (⟨1, ![4096]⟩ : Shape).Idx → EReal) (W2 : (⟨2, ![4096, 4096]⟩ : Shape).Idx → EReal)
    (b2 : (⟨1, ![4096]⟩ : Shape).Idx → EReal) (W3 : (⟨2, ![4096, 1024]⟩ : Shape).Idx → EReal)
    (b3 : (⟨1, ![1024]⟩ : Shape).Idx → EReal) (b : Fin 64) (q : Fin 1024) :
    G x y mask W1 b1 W2 b2 W3 b3 (ix2 b q) = Ideal.div (num x y mask W1 b1 W2 b2 W3 b3 b q) (cnt mask b) := rfl

end Cert.MLP

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.LibAxisReads.lean ====
/-
  Reductions of a matrix along one axis, and a product with a transposed right operand, read at an index at the
  ideal values.

  For an `[a, b]` matrix of extended reals: the sum down the rows at column `q` is `∑ k, x (k, q)`, the sum along a row
  `p` is `∑ k, x (p, k)`, and the maximum down the rows at column `q` is the fold of `max` from `-∞` over `k ↦ x (k, q)`.
  For dimension numbers that contract the second axis of an `[M, K]` left operand against the second axis of an
  `[N, K]` right operand (stated as four coordinate facts a literal record proves by unfolding), entry `(p, c)` of the
  product into a zero accumulator is `∑ k, X (p, k) · W (c, k)`. General in every extent; each accumulator
  hypothesis is an equation between two copies of one word (zero for a sum, `-∞` for a maximum).
-/
import Idealize.ShloMosaic.Lib.ValueIdx
import Idealize.ShloMosaic.PureOps.Ideal.Laws

noncomputable section

namespace Cert.Lib.AxisReads

open Idealize.ShloMosaic Idealize.ShloMosaic.ValueIdx

variable {a b : ℕ}

/-- Column `q` with row `k` put back is `(k, q)`. -/
theorem lift_axis0 (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  fin_cases c <;> rfl

/-- Row `p` with column `k` put back is `(p, k)`. -/
theorem lift_axis1 (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  fin_cases c <;> rfl

/-- The sum down the rows, at column `q`. -/
theorem sum_axis0 (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_axis0 h q k)

/-- The sum along row `p`. -/
theorem sum_axis1 (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_axis1 h p k)

/-- The maximum down the rows, at column `q`: the fold of `max` from `-∞`. -/
theorem max_axis0 (src : FVec Ideal ⟨2, ![a, b]⟩ .f32) (h : (⟨2, ![a, b]⟩ : Shape).Reduces [0] ⟨1, ![b]⟩)
    (hφ : FKind.Formats .f32) (hacc : (0xFF800000#32 : BitVec 32) = 0xFF800000#32) (q : Fin b) :
    multiReduction .maximumf [0] ⟨1, ![b]⟩ src 0xFF800000#32 h hφ hacc (ix1 q)
      = (Finset.univ : Finset (Fin a)).fold max (Ideal.ofBits .f32 0xFF800000#32) (fun k => src (ix2 k q)) := by
  refine (Ideal.multiReduction_maximumf_single src 0xFF800000#32 h hφ hacc (ix1 q)).trans ?_
  exact congrArg (fun f => Finset.fold max (Ideal.ofBits .f32 0xFF800000#32) f (Finset.univ : Finset (Fin a)))
    (funext fun k => congrArg src (lift_axis0 h q k))

/-- For dimension numbers contracting both operands' second axes (the four coordinate facts say so), entry `(p, c)`
    of the product into a zero accumulator is `∑ k, X (p, k) · W (c, k)`. -/
theorem matmul_rowrow {M K N : Nat} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (X : FVec Ideal ⟨2, ![M, K]⟩ φ₁) (W : FVec Ideal ⟨2, ![N, K]⟩ φ₂) (p : Fin M) (c : Fin N) :
    matmul D none X W (constant ⟨2, ![M, N]⟩ .f32 0x00000000#32) (ix2 p c)
      = ∑ k : Fin K, X (ix2 p k) * W (ix2 c k) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.AxisReads

end
-- ==== Proof.PayloadReads.lean ====
import proofs.«180502_j38087769981504_2_alg».proof.Proof.Gen.KernelIdeal.Skeleton
import proofs.«180502_j38087769981504_2_alg».proof.Proof.Spec
import proofs.«180502_j38087769981504_2_alg».proof.Proof.LibMatmulRowCol
import proofs.«180502_j38087769981504_2_alg».proof.Proof.LibColumn
import proofs.«180502_j38087769981504_2_alg».proof.Proof.LibAxisReads
import Idealize.ShloMosaic.Lib.ValueLayout
import Idealize.ShloMosaic.Lib.Pipeline.Value

noncomputable section

namespace Cert.MLP.Pay

open Idealize.ShloMosaic Idealize.ShloMosaic.ValueIdx Cert.KernelIdeal Cert.KernelIdeal.Gen

/-! ### The first layer's product contracts the left operand's columns against the right operand's rows. -/

theorem d1_l0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl
theorem d1_l1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem d1_r0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem d1_r1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The first layer's product into the zero accumulator, at (p, j). -/
theorem mm1_apply (X : FVec Ideal S512x256 .bf16) (W : FVec Ideal S256x512 .bf16) (p : Fin 512) (j : Fin 512) :
    matmul dot_S512x256_S256x512_S512x512_1_0_0_1_n_n none X W (constant S512x512 .f32 0x00000000#32) (ix2 p j)
      = ∑ d : Fin 256, X (ix2 p d) * W (ix2 d j) :=
  Cert.LibMatmul.matmul_rowcol dot_S512x256_S256x512_S512x512_1_0_0_1_n_n rfl rfl d1_l0 d1_l1 d1_r0 d1_r1 X W p j

/-! ### The second layer's product, one block of 512 hidden units, contracts the same way. -/

theorem d2_l0 (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide),
    dif_pos (show (0 : Fin S512x512.rank) ∈ dot_S512x512_S512x4096_S512x4096_1_0_0_1_n_n.lhsNonContracting by decide)]
  rfl
theorem d2_l1 (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
theorem d2_r0 (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
theorem d2_r1 (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide),
    dif_pos (show (1 : Fin S512x4096.rank) ∈ dot_S512x512_S512x4096_S512x4096_1_0_0_1_n_n.rhsNonContracting by decide)]
  rfl

/-- The second layer's product over one block of hidden units, at (p, c). -/
theorem mm2_apply (X : FVec Ideal S512x512 .bf16) (W : FVec Ideal S512x4096 .bf16) (p : Fin 512) (c : Fin 4096) :
    matmul dot_S512x512_S512x4096_S512x4096_1_0_0_1_n_n none X W (constant S512x4096 .f32 0x00000000#32) (ix2 p c)
      = ∑ j : Fin 512, X (ix2 p j) * W (ix2 j c) :=
  Cert.LibMatmul.matmul_rowcol dot_S512x512_S512x4096_S512x4096_1_0_0_1_n_n rfl rfl d2_l0 d2_l1 d2_r0 d2_r1 X W p c

/-! ### The third layer's product contracts the same way. -/

theorem d3_l0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide),
    dif_pos (show (0 : Fin S512x4096.rank) ∈ dot_S512x4096_S4096x1024_S512x1024_1_0_0_1_n_n.lhsNonContracting by decide)]
  rfl
theorem d3_l1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem d3_r0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem d3_r1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide),
    dif_pos (show (1 : Fin S4096x1024.rank) ∈ dot_S512x4096_S4096x1024_S512x1024_1_0_0_1_n_n.rhsNonContracting by decide)]
  rfl

/-- The third layer's product, at (p, q). -/
theorem mm3_apply (X : FVec Ideal S512x4096 .bf16) (W : FVec Ideal S4096x1024 .bf16) (p : Fin 512) (q : Fin 1024) :
    matmul dot_S512x4096_S4096x1024_S512x1024_1_0_0_1_n_n none X W (constant S512x1024 .f32 0x00000000#32) (ix2 p q)
      = ∑ c : Fin 4096, X (ix2 p c) * W (ix2 c q) :=
  Cert.LibMatmul.matmul_rowcol dot_S512x4096_S4096x1024_S512x1024_1_0_0_1_n_n rfl rfl d3_l0 d3_l1 d3_r0 d3_r1 X W p q

/-- A [1, 1, b] array spread over a rows, [1, a, b], reads at (u, s, q) the operand's one row at q. -/
theorem broadcastTo_11b_1ab_apply {α : Type} {a b : ℕ} (v : (⟨3, ![1, 1, b]⟩ : Shape).Idx → α)
    (h : (⟨3, ![1, 1, b]⟩ : Shape).Broadcasts ⟨3, ![1, a, b]⟩) (u : Fin 1) (s : Fin a) (q : Fin b) :
    broadcastTo ⟨3, ![1, a, b]⟩ v h (ix3 u s q) = v (ix3 (0 : Fin 1) (0 : Fin 1) q) := by
  refine broadcastTo_apply v h (ix3 u s q) (ix3 (0 : Fin 1) (0 : Fin 1) q) fun ax => ?_
  match ax with
  | ⟨0, _⟩ => rfl
  | ⟨1, _⟩ => rfl
  | ⟨2, _⟩ =>
    show q.val = if b = 1 then 0 else q.val
    split
    · have := q.isLt; omega
    · rfl

/-- The block stored when a batch's accumulation starts is zero everywhere. -/
theorem pay1_apply (p : Fin 512) (c : Fin 4096) : k0_pay1 (F := Ideal) (ix2 p c) = Cert.MLP.Z := by
  unfold k0_pay1
  simp only [shapeCast_self]
  rfl

/-- One step of the second layer's accumulation: to the accumulator's entry (p, c) is added the contribution of
    one block of 512 hidden units, Σ_j max (Σ_d X p d · A d j + bias j) 0 · B j c. -/
theorem pay2_apply (v3 : Vec Ideal S512x256 .bf16) (v5 : Vec Ideal S256x512 .bf16) (v8 : Vec Ideal S1x512 .f32)
    (v15 : Vec Ideal S512x4096 .bf16) (v17 : Vec Ideal S512x4096 .f32) (p : Fin 512) (c : Fin 4096) :
    k0_pay2 (F := Ideal) v3 v5 v8 v15 v17 (ix2 p c)
      = v17 (ix2 p c) + ∑ j : Fin 512, max ((∑ d : Fin 256, v3 (ix2 p d) * v5 (ix2 d j)) + v8 (ix2 (0 : Fin 1) j)) Cert.MLP.Z * v15 (ix2 j c) := by
  unfold k0_pay2
  simp only [shapeCast_self, addf_apply, mm2_apply, truncf_apply, maximumf_apply, broadcast_apply, mm1_apply,
    broadcastTo_1b_ab_apply]
  rfl

/-- The epilogue: from the finished accumulator, the second layer's clip, the third layer, the mask and the sum
    over the 512 tokens; every one of the 8 rows of the stored block holds that sum. -/
theorem pay3_apply (v26 : Vec Ideal S512x4096 .f32) (v27 : Vec Ideal S1x4096 .f32) (v34 : Vec Ideal S4096x1024 .bf16)
    (v37 : Vec Ideal S1x1024 .f32) (v41 : Vec Ideal S512x1 .f32) (s : Fin 8) (q : Fin 1024) :
    k0_pay3 (F := Ideal) v26 v27 v34 v37 v41 (ix3 (0 : Fin 1) s q)
      = ∑ p : Fin 512, ((∑ c : Fin 4096, max (v26 (ix2 p c) + v27 (ix2 (0 : Fin 1) c)) Cert.MLP.Z * v34 (ix2 c q)) + v37 (ix2 (0 : Fin 1) q))
          * v41 (ix2 p (0 : Fin 1)) := by
  unfold k0_pay3
  simp only [shapeCast_self, broadcastTo_11b_1ab_apply, shapeCast_ab_1ab_apply, shapeCast_a_1a_apply]
  refine (Cert.Lib.AxisReads.sum_axis0 _ reduces_S512x1024_S1024 _ _ q).trans ?_
  refine Finset.sum_congr rfl fun p _ => ?_
  simp only [mulf_apply, addf_apply, mm3_apply, truncf_apply, maximumf_apply, broadcast_apply,
    broadcastTo_1b_ab_apply, Cert.Lib.Column.broadcastTo_a1_ab_apply]
  rfl

end Cert.MLP.Pay

end
-- ==== Proof.BlockReads.lean ====
import proofs.«180502_j38087769981504_2_alg».proof.Proof.Gen.KernelIdeal.Frame
import proofs.«180502_j38087769981504_2_alg».proof.Proof.Spec
import Idealize.ShloMosaic.Lib.ValueLayout
import Idealize.ShloMosaic.Lib.Pipeline.Value
import Idealize.ShloMosaic.Lib.StableHlo.Run

noncomputable section

namespace Cert.MLP.Blk

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## Which block each window shows at a grid point

Point t of the 64 × 8 grid is (b, k) = (t / 8, t % 8). Each index map, decided once over the 512 points. -/

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = 0 ∧ win0_2.index t 1 = t.val % 8 :=
  (by decide +kernel : ∀ t : Fin grid0.N, win0_2.index t 0 = 0 ∧ win0_2.index t 1 = t.val % 8)
theorem idx3 : ∀ t : Fin cfg0.N, win0_3.index t 0 = t.val % 8 ∧ win0_3.index t 1 = 0 :=
  (by decide +kernel : ∀ t : Fin grid0.N, win0_3.index t 0 = t.val % 8 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val / 8 ∧ win0_7.index t 1 = 0 :=
  (by decide +kernel : ∀ t : Fin grid0.N, win0_7.index t 0 = t.val / 8 ∧ win0_7.index t 1 = 0)

/-! ## The arrays the windows read, as terms of the argument arrays

Each is what the host operations before the region left in it: a conversion to bf16 (the identity on the extended
reals), a reshape, the mask read as numbers, and for the input rows the concatenation of x and y along the feature
axis, flattened over (batch, token). -/

theorem V_v7 (c : Dev nD) :
    (V m c main_v7 : S4096x1024.Idx → EReal)
      = (truncf .bf16 (m ((c : Thread nD τ).loc main_arg7)) bitsLt_bf16_f32 : FVec Ideal S4096x1024 .bf16) := by
  show StableHlo.after hostOps0 (fun b => m (c, b)) (Proc.devRef .tc main_v7) = _
  after_results
  all_goals rfl

theorem V_v6 (c : Dev nD) :
    (V m c main_v6 : S4096x4096.Idx → EReal)
      = (truncf .bf16 (m ((c : Thread nD τ).loc main_arg5)) bitsLt_bf16_f32 : FVec Ideal S4096x4096 .bf16) := by
  show StableHlo.after hostOps0 (fun b => m (c, b)) (Proc.devRef .tc main_v6) = _
  after_results
  all_goals rfl

theorem V_v5 (c : Dev nD) :
    (V m c main_v5 : S256x4096.Idx → EReal)
      = (truncf .bf16 (m ((c : Thread nD τ).loc main_arg3)) bitsLt_bf16_f32 : FVec Ideal S256x4096 .bf16) := by
  show StableHlo.after hostOps0 (fun b => m (c, b)) (Proc.devRef .tc main_v5) = _
  after_results
  all_goals rfl

theorem V_v10 (c : Dev nD) :
    (V m c main_v10 : S1x1024.Idx → EReal)
      = shapeCast S1x1024 (m ((c : Thread nD τ).loc main_arg8) : S1024.Idx → EReal) shapeCasts_S1024_S1x1024 := by
  show StableHlo.after hostOps0 (fun b => m (c, b)) (Proc.devRef .tc main_v10) = _
  after_results
  all_goals rfl

theorem V_v9 (c : Dev nD) :
    (V m c main_v9 : S1x4096.Idx → EReal)
      = shapeCast S1x4096 (m ((c : Thread nD τ).loc main_arg6) : S4096.Idx → EReal) shapeCasts_S4096_S1x4096 := by
  show StableHlo.after hostOps0 (fun b => m (c, b)) (Proc.devRef .tc main_v9) = _
  after_results
  all_goals rfl

theorem V_v8 (c : Dev nD) :
    (V m c main_v8 : S1x4096.Idx → EReal)
      = shapeCast S1x4096 (m ((c : Thread nD τ).loc main_arg4) : S4096.Idx → EReal) shapeCasts_S4096_S1x4096 := by
  show StableHlo.after hostOps0 (fun b => m (c, b)) (Proc.devRef .tc main_v8) = _
  after_results
  all_goals rfl

theorem V_v4 (c : Dev nD) :
    (V m c main_v4 : S32768x1.Idx → EReal)
      = (uitofp (F := Ideal) .f32
          (shapeCast S32768x1 (m ((c : Thread nD τ).loc main_arg2) : S64x512.Idx → BitVec 1) shapeCasts_S64x512_S32768x1)
          : FVec Ideal S32768x1 .f32) := by
  show StableHlo.after hostOps0 (fun b => m (c, b)) (Proc.devRef .tc main_v4) = _
  after_results
  all_goals rfl

theorem V_v2 (c : Dev nD) :
    (V m c main_v2 : S32768x256.Idx → EReal)
      = (truncf .bf16
          (shapeCast S32768x256
            (concatenate S64x512x256 2
              [⟨S64x512x128, (m ((c : Thread nD τ).loc main_arg0) : S64x512x128.Idx → EReal)⟩,
               ⟨S64x512x128, (m ((c : Thread nD τ).loc main_arg1) : S64x512x128.Idx → EReal)⟩]
              concatenates_S64x512x128_S64x512x128_S64x512x256_d2)
            shapeCasts_S64x512x256_S32768x256)
          bitsLt_bf16_f32 : FVec Ideal S32768x256 .bf16) := by
  show StableHlo.after hostOps0 (fun b => m (c, b)) (Proc.devRef .tc main_v2) = _
  after_results
  all_goals rfl

/-! ## The blocks at an index -/

/-- all of W3, -/
theorem blk5_apply (c : Dev nD) (t : Fin cfg0.N) (cc : Fin 4096) (q : Fin 1024) :
    (iblk m c 5 t : Vec Ideal S4096x1024 .bf16) (ix2 cc q) = m ((c : Thread nD τ).loc main_arg7) (ix2 cc q) := by
  unfold iblk
  rw [View.read_apply]
  show V m c main_v7 _ = _
  refine (congrFun (V_v7 m c) _).trans ?_
  show m ((c : Thread nD τ).loc main_arg7) _ = m ((c : Thread nD τ).loc main_arg7) (ix2 cc q)
  congr 1
  funext a
  apply Fin.ext
  match a with
  | ⟨0, _⟩ => show win0_5.index t 0 * 4096 + 1 * cc.val = cc.val; rw [(idx5 t).1]; omega
  | ⟨1, _⟩ => show win0_5.index t 1 * 1024 + 1 * q.val = q.val; rw [(idx5 t).2]; omega

/-- all of b3, -/
theorem blk6_apply (c : Dev nD) (t : Fin cfg0.N) (q : Fin 1024) :
    (iblk m c 6 t : Vec Ideal S1x1024 .f32) (ix2 (0 : Fin 1) q) = m ((c : Thread nD τ).loc main_arg8) (ix1 q) := by
  unfold iblk
  rw [View.read_apply]
  show V m c main_v10 _ = _
  refine (congrFun (V_v10 m c) _).trans ?_
  refine (congrArg (shapeCast S1x1024 (m ((c : Thread nD τ).loc main_arg8) : S1024.Idx → EReal) shapeCasts_S1024_S1x1024)
    (?_ : _ = ix2 (0 : Fin 1) q)).trans (shapeCast_a_1a_apply _ _ _ _)
  funext a
  apply Fin.ext
  match a with
  | ⟨0, _⟩ => show win0_6.index t 0 * 1 + 1 * 0 = 0; rw [(idx6 t).1]
  | ⟨1, _⟩ => show win0_6.index t 1 * 1024 + 1 * q.val = q.val; rw [(idx6 t).2]; omega

/-- all of b2, -/
theorem blk4_apply (c : Dev nD) (t : Fin cfg0.N) (cc : Fin 4096) :
    (iblk m c 4 t : Vec Ideal S1x4096 .f32) (ix2 (0 : Fin 1) cc) = m ((c : Thread nD τ).loc main_arg6) (ix1 cc) := by
  unfold iblk
  rw [View.read_apply]
  show V m c main_v9 _ = _
  refine (congrFun (V_v9 m c) _).trans ?_
  refine (congrArg (shapeCast S1x4096 (m ((c : Thread nD τ).loc main_arg6) : S4096.Idx → EReal) shapeCasts_S4096_S1x4096)
    (?_ : _ = ix2 (0 : Fin 1) cc)).trans (shapeCast_a_1a_apply _ _ _ _)
  funext a
  apply Fin.ext
  match a with
  | ⟨0, _⟩ => show win0_4.index t 0 * 1 + 1 * 0 = 0; rw [(idx4 t).1]
  | ⟨1, _⟩ => show win0_4.index t 1 * 4096 + 1 * cc.val = cc.val; rw [(idx4 t).2]; omega

/-- the k-th block of 512 columns of W1, -/
theorem blk1_apply (c : Dev nD) (t : Fin cfg0.N) (d : Fin 256) (j : Fin 512) (J : Fin 4096) (hJ : J.val = 512 * (t.val % 8) + j.val) :
    (iblk m c 1 t : Vec Ideal S256x512 .bf16) (ix2 d j) = m ((c : Thread nD τ).loc main_arg3) (ix2 d J) := by
  unfold iblk
  rw [View.read_apply]
  show V m c main_v5 _ = _
  refine (congrFun (V_v5 m c) _).trans ?_
  show m ((c : Thread nD τ).loc main_arg3) _ = m ((c : Thread nD τ).loc main_arg3) (ix2 d J)
  congr 1
  funext a
  apply Fin.ext
  match a with
  | ⟨0, _⟩ => show win0_1.index t 0 * 256 + 1 * d.val = d.val; rw [(idx1 t).1]; omega
  | ⟨1, _⟩ => show win0_1.index t 1 * 512 + 1 * j.val = J.val; rw [(idx1 t).2]; omega

/-- the same 512 entries of b1, -/
theorem blk2_apply (c : Dev nD) (t : Fin cfg0.N) (j : Fin 512) (J : Fin 4096) (hJ : J.val = 512 * (t.val % 8) + j.val) :
    (iblk m c 2 t : Vec Ideal S1x512 .f32) (ix2 (0 : Fin 1) j) = m ((c : Thread nD τ).loc main_arg4) (ix1 J) := by
  unfold iblk
  rw [View.read_apply]
  show V m c main_v8 _ = _
  refine (congrFun (V_v8 m c) _).trans ?_
  refine (congrArg (shapeCast S1x4096 (m ((c : Thread nD τ).loc main_arg4) : S4096.Idx → EReal) shapeCasts_S4096_S1x4096)
    (?_ : _ = ix2 (0 : Fin 1) J)).trans (shapeCast_a_1a_apply _ _ _ _)
  funext a
  apply Fin.ext
  match a with
  | ⟨0, _⟩ => show win0_2.index t 0 * 1 + 1 * 0 = 0; rw [(idx2 t).1]
  | ⟨1, _⟩ => show win0_2.index t 1 * 512 + 1 * j.val = J.val; rw [(idx2 t).2]; omega

/-- the k-th block of 512 rows of W2, -/
theorem blk3_apply (c : Dev nD) (t : Fin cfg0.N) (j : Fin 512) (cc : Fin 4096) (J : Fin 4096) (hJ : J.val = 512 * (t.val % 8) + j.val) :
    (iblk m c 3 t : Vec Ideal S512x4096 .bf16) (ix2 j cc) = m ((c : Thread nD τ).loc main_arg5) (ix2 J cc) := by
  unfold iblk
  rw [View.read_apply]
  show V m c main_v6 _ = _
  refine (congrFun (V_v6 m c) _).trans ?_
  show m ((c : Thread nD τ).loc main_arg5) _ = m ((c : Thread nD τ).loc main_arg5) (ix2 J cc)
  congr 1
  funext a
  apply Fin.ext
  match a with
  | ⟨0, _⟩ => show win0_3.index t 0 * 512 + 1 * j.val = J.val; rw [(idx3 t).1]; omega
  | ⟨1, _⟩ => show win0_3.index t 1 * 4096 + 1 * cc.val = cc.val; rw [(idx3 t).2]; omega

/-- and batch b's 512 mask bits as numbers. -/
theorem blk7_apply (c : Dev nD) (t : Fin cfg0.N) (b : Fin 64) (hb : b.val = t.val / 8) (p : Fin 512) :
    (iblk m c 7 t : Vec Ideal S512x1 .f32) (ix2 p (0 : Fin 1)) = Cert.MLP.mf (m ((c : Thread nD τ).loc main_arg2)) b p := by
  unfold iblk
  rw [View.read_apply]
  show V m c main_v4 _ = _
  refine (congrFun (V_v4 m c) _).trans ?_
  unfold Cert.MLP.mf
  show FloatOps.uitofp (F := Ideal) .f32 (shapeCast S32768x1 (m ((c : Thread nD τ).loc main_arg2) : S64x512.Idx → BitVec 1) shapeCasts_S64x512_S32768x1 _) = _
  refine congrArg (FloatOps.uitofp (F := Ideal) .f32) ?_
  refine shapeCast_apply _ _ _ (ix2 b p) ?_
  rw [Shape.rowMajor_val_two, Shape.rowMajor_val_two]
  show b.val * 512 + p.val = (win0_7.index t 0 * 512 + 1 * p.val) * 1 + (win0_7.index t 1 * 1 + 1 * 0)
  rw [(idx7 t).1, (idx7 t).2]
  omega

/-- Point t = 8·b + k of the grid sees batch b's 512 input rows, -/
theorem blk0_apply (c : Dev nD) (t : Fin cfg0.N) (b : Fin 64) (hb : b.val = t.val / 8) (p : Fin 512) (d : Fin 256) :
    (iblk m c 0 t : Vec Ideal S512x256 .bf16) (ix2 p d)
      = Cert.MLP.row (m ((c : Thread nD τ).loc main_arg0)) (m ((c : Thread nD τ).loc main_arg1)) b p d := by
  unfold iblk
  rw [View.read_apply]
  show V m c main_v2 _ = _
  refine (congrFun (V_v2 m c) _).trans ?_
  refine (truncf_apply (φ := .f32) (ψ := .bf16) _ bitsLt_bf16_f32 _).trans ?_
  refine (shapeCast_apply _ _ _ (ix3 b p d) ?_).trans ?_
  · rw [Shape.rowMajor_val_three, Shape.rowMajor_val_two]
    show (b.val * 512 + p.val) * 256 + d.val = (win0_0.index t 0 * 512 + 1 * p.val) * 256 + (win0_0.index t 1 * 256 + 1 * d.val)
    rw [(idx0 t).1, (idx0 t).2]
    omega
  · unfold Cert.MLP.row
    by_cases h : d.val < 128
    · rw [dif_pos h]
      refine concatenate_pair_apply_left (t := S64x512x256) (s₁ := S64x512x128) (s₂ := S64x512x128) (2 : Fin 3) _ _ _
        (ix3 b p d) rfl (ix3 b p (⟨d.val, h⟩ : Fin 128)) ?_
      intro a
      match a with
      | ⟨0, _⟩ => rfl
      | ⟨1, _⟩ => rfl
      | ⟨2, _⟩ => rfl
    · rw [dif_neg h]
      refine concatenate_pair_apply_right (t := S64x512x256) (s₁ := S64x512x128) (s₂ := S64x512x128) (2 : Fin 3) _ _ _
        (ix3 b p d) rfl rfl (ix3 b p (⟨d.val - 128, by have := d.isLt; omega⟩ : Fin 128)) ?_ ?_
      · intro a ha
        match a, ha with
        | ⟨0, _⟩, _ => rfl
        | ⟨1, _⟩, _ => rfl
        | ⟨2, _⟩, ha => exact absurd rfl ha
      · show (d.val - 128) + 128 = d.val
        omega

end Cert.MLP.Blk

end
-- ==== Proof.LibBlockSum.lean ====
/-
  A sum over `B * A` consecutive terms regrouped as `A` consecutive blocks of `B` terms each, in any commutative
  additive monoid: nothing but associativity of the sum is used, so the law holds on the extended reals with
  their infinities. It is what identifies a contraction accumulated block by block along its axis with the
  contraction done at once.
-/
import Mathlib.Algebra.BigOperators.Intervals
import Mathlib.Algebra.BigOperators.Fin

open scoped BigOperators

namespace Cert.BlockSum

/-- The first `B * A` terms of a sequence, summed block by block: block `s` holds the terms `B * s, …, B * s + B - 1`. -/
theorem sum_range_blocks {β : Type*} [AddCommMonoid β] (f : ℕ → β) (B : ℕ) :
    ∀ A : ℕ, ∑ k ∈ Finset.range (B * A), f k = ∑ s ∈ Finset.range A, ∑ r ∈ Finset.range B, f (B * s + r)
  | 0 => by simp
  | A + 1 => by
    rw [Nat.mul_succ, Finset.sum_range_add, sum_range_blocks f B A, Finset.sum_range_succ]

/-- The same with the terms indexed by `Fin n`, `n = B * A`, and each block's terms by `Fin B`. -/
theorem sum_fin_blocks {β : Type*} [AddCommMonoid β] (f : ℕ → β) (A B n : ℕ) (h : n = B * A) :
    ∑ k : Fin n, f k.val = ∑ s ∈ Finset.range A, ∑ r : Fin B, f (B * s + r.val) := by
  subst h
  rw [Fin.sum_univ_eq_sum_range, sum_range_blocks]
  refine Finset.sum_congr rfl fun s _ => ?_
  rw [Fin.sum_univ_eq_sum_range (fun r => f (B * s + r))]

end Cert.BlockSum
-- ==== Proof.Accum.lean ====
/-
  The accumulator across the eight steps of a batch, and the batch's output block.

  Grid point t = 8·b + k works on batch b and on the k-th block of 512 hidden units of the first layer. Its step
  adds to the accumulator's entry (p, c) the block's share Σ_j h1[b,p,512k+j] · W2[512k+j, c] of the second
  layer's contraction; the accumulator is the zero block before k = 0. So after point 8·b + k it holds
  0 + Σ_{s ≤ k} (share of block s), and after k = 7 the whole contraction Σ_J h1[b,p,J] · W2[J,c]: a sum over 4096
  terms taken in 8 consecutive blocks of 512, which only uses that addition is associative. The last point of the
  batch then forms the second layer's clip, the third layer, the mask and the sum over the 512 tokens: the masked
  sum num[b, q], the same in each of the block's 8 rows.
-/
import proofs.«180502_j38087769981504_2_alg».proof.Proof.Pieces
import proofs.«180502_j38087769981504_2_alg».proof.Proof.PayloadReads
import proofs.«180502_j38087769981504_2_alg».proof.Proof.BlockReads
import proofs.«180502_j38087769981504_2_alg».proof.Proof.LibBlockSum
import proofs.«180502_j38087769981504_2_alg».proof.Proof.Spec
import Idealize.ShloMosaic.PureOps.Ideal.Laws

noncomputable section

namespace Cert.MLP.Acc

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- Hidden unit k's term of the second layer's contraction at (b, p, cc); zero past the 4096 units. -/
def term (c : Dev nD) (b : Fin 64) (p : Fin 512) (cc : Fin 4096) (k : ℕ) : EReal :=
  if h : k < 4096 then Cert.MLP.h1 (m ((c : Thread nD τ).loc main_arg0)) (m ((c : Thread nD τ).loc main_arg1)) (m ((c : Thread nD τ).loc main_arg3)) (m ((c : Thread nD τ).loc main_arg4)) b p ⟨k, h⟩ * (m ((c : Thread nD τ).loc main_arg5)) (ix2 (⟨k, h⟩ : Fin 4096) cc) else 0

/-- The share of the s-th block of 512 hidden units. -/
def share (c : Dev nD) (b : Fin 64) (p : Fin 512) (cc : Fin 4096) (s : ℕ) : EReal :=
  ∑ j : Fin 512, term m c b p cc (512 * s + j.val)

/-- One step at point t = 8·b + k: the previous accumulator plus block k's share. -/
theorem step_apply (c : Dev nD) (t : Fin cfg0.N) (b : Fin 64) (hb : b.val = t.val / 8) (prev : Vec Ideal S512x4096 .f32)
    (p : Fin 512) (cc : Fin 4096) :
    k0_pay2 (F := Ideal) (iblk m c 0 t) (iblk m c 1 t) (iblk m c 2 t) (iblk m c 3 t) prev (ix2 p cc) = prev (ix2 p cc) + share m c b p cc (t.val % 8) := by
  refine (Cert.MLP.Pay.pay2_apply (iblk m c 0 t) (iblk m c 1 t) (iblk m c 2 t) (iblk m c 3 t) prev p cc).trans ?_
  unfold share
  refine congrArg (prev (ix2 p cc) + ·) (Finset.sum_congr rfl fun j _ => ?_)
  have hk : t.val % 8 < 8 := Nat.mod_lt _ (by decide)
  have hJ : 512 * (t.val % 8) + j.val < 4096 := by have := j.isLt; omega
  unfold term
  rw [dif_pos hJ, Cert.MLP.Blk.blk3_apply m c t j cc ⟨_, hJ⟩ rfl, Cert.MLP.Blk.blk2_apply m c t j ⟨_, hJ⟩ rfl]
  unfold Cert.MLP.h1
  refine congrArg (fun z => max (z + _) _ * _) (Finset.sum_congr rfl fun d _ => ?_)
  rw [Cert.MLP.Blk.blk0_apply m c t b hb p d, Cert.MLP.Blk.blk1_apply m c t d j ⟨_, hJ⟩ rfl]

/-- What the first point of a batch leaves in the accumulator: the step over the zero block. -/
theorem acc_A (c : Dev nD) (t : Fin cfg0.N) (h0 : t.val % 8 = 0) (h1 : ¬t.val % 8 = 7) :
    (outsAt0 m c t.val t.isLt).2 = k0_pay2 (F := Ideal) (iblk m c 0 t) (iblk m c 1 t) (iblk m c 2 t) (iblk m c 3 t) (k0_pay1 (F := Ideal)) := by
  rw [outsAt0_A m c t h0 h1]
  dsimp only
  exact Cert.MLP.Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- What a middle point leaves: the step over what the point before left. -/
theorem acc_B (c : Dev nD) (t : Fin cfg0.N) (h0 : ¬t.val % 8 = 0) (h1 : ¬t.val % 8 = 7) :
    (outsAt0 m c t.val t.isLt).2 = k0_pay2 (F := Ideal) (iblk m c 0 t) (iblk m c 1 t) (iblk m c 2 t) (iblk m c 3 t) (outsAt0 m c (t.val - 1) (Nat.lt_of_le_of_lt (Nat.sub_le _ _) t.isLt)).2 := by
  rw [outsAt0_B m c t h0 h1]
  dsimp only
  exact Cert.MLP.Pieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-- What the last point of a batch leaves: the same step, -/
theorem acc_C (c : Dev nD) (t : Fin cfg0.N) (h0 : ¬t.val % 8 = 0) (h1 : t.val % 8 = 7) :
    (outsAt0 m c t.val t.isLt).2 = k0_pay2 (F := Ideal) (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  exact Cert.MLP.Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-- and, in the output block, the epilogue of the accumulator it has just finished. -/
theorem out_C (c : Dev nD) (t : Fin cfg0.N) (h0 : ¬t.val % 8 = 0) (h1 : t.val % 8 = 7) :
    (outsAt0 m c t.val t.isLt).1
      = k0_pay3 (F := Ideal) (outsAt0 m c t.val t.isLt).2 (iblk m c 4 t) (iblk m c 5 t) (iblk m c 6 t) (iblk m c 7 t) := by
  rw [acc_C m c t h0 h1, outsAt0_C m c t h0 h1]
  dsimp only
  exact Cert.MLP.Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-- After point n = 8·b + k the accumulator holds zero plus the shares of blocks 0 … k of batch b. -/
theorem acc_eq (c : Dev nD) : ∀ (n : ℕ) (h : n < cfg0.N) (b : Fin 64) (hb : b.val = n / 8) (p : Fin 512) (cc : Fin 4096),
    (outsAt0 m c n h).2 (ix2 p cc) = Cert.MLP.Z + ∑ s ∈ Finset.range (n % 8 + 1), share m c b p cc s
  | 0, h, b, hb, p, cc => by
    rw [acc_A m c ⟨0, h⟩ rfl (by dsimp only; omega), step_apply m c ⟨0, h⟩ b hb, Cert.MLP.Pay.pay1_apply]
    show _ = Cert.MLP.Z + ∑ s ∈ Finset.range 1, share m c b p cc s
    rw [Finset.sum_range_one]
    rfl
  | n + 1, h, b, hb, p, cc => by
    by_cases h0 : (n + 1) % 8 = 0
    · have h1 : ¬(n + 1) % 8 = 7 := by omega
      rw [acc_A m c ⟨n + 1, h⟩ h0 h1, step_apply m c ⟨n + 1, h⟩ b hb, Cert.MLP.Pay.pay1_apply]
      show _ + share m c b p cc ((n + 1) % 8) = _
      rw [h0, Finset.sum_range_one]
    · have e : (n + 1) % 8 = n % 8 + 1 := by omega
      have hb' : b.val = n / 8 := by omega
      have hstep : (outsAt0 m c (n + 1) h).2 = k0_pay2 (F := Ideal) (iblk m c 0 ⟨n + 1, h⟩) (iblk m c 1 ⟨n + 1, h⟩) (iblk m c 2 ⟨n + 1, h⟩) (iblk m c 3 ⟨n + 1, h⟩) (outsAt0 m c n (Nat.lt_of_succ_lt h)).2 := by
        by_cases h1 : (n + 1) % 8 = 7
        · exact acc_C m c ⟨n + 1, h⟩ h0 h1
        · exact acc_B m c ⟨n + 1, h⟩ h0 h1
      rw [hstep, step_apply m c ⟨n + 1, h⟩ b hb, acc_eq c n (Nat.lt_of_succ_lt h) b hb' p cc]
      show _ + share m c b p cc ((n + 1) % 8) = _
      rw [e, Finset.sum_range_succ _ (n % 8 + 1), add_assoc]

/-- The finished accumulator of batch b is the second layer's whole contraction. -/
theorem acc_last (c : Dev nD) (t : Fin cfg0.N) (h1 : t.val % 8 = 7) (b : Fin 64) (hb : b.val = t.val / 8) (p : Fin 512) (cc : Fin 4096) :
    (outsAt0 m c t.val t.isLt).2 (ix2 p cc) = ∑ J : Fin 4096, Cert.MLP.h1 (m ((c : Thread nD τ).loc main_arg0)) (m ((c : Thread nD τ).loc main_arg1)) (m ((c : Thread nD τ).loc main_arg3)) (m ((c : Thread nD τ).loc main_arg4)) b p J * (m ((c : Thread nD τ).loc main_arg5)) (ix2 J cc) := by
  rw [acc_eq m c t.val t.isLt b hb p cc, h1]
  show Ideal.ofBits .f32 0x00000000#32 + ∑ s ∈ Finset.range 8, ∑ j : Fin 512, term m c b p cc (512 * s + j.val) = _
  rw [Ideal.ofBits_zero_f32, zero_add, ← Cert.BlockSum.sum_fin_blocks (term m c b p cc) 8 512 4096 rfl]
  refine Finset.sum_congr rfl fun J _ => ?_
  unfold term
  rw [dif_pos J.isLt]

/-- The output block of batch b: every row holds the masked sum over the batch's tokens. -/
theorem out_apply (c : Dev nD) (t : Fin cfg0.N) (h1 : t.val % 8 = 7) (b : Fin 64) (hb : b.val = t.val / 8) (s : Fin 8) (q : Fin 1024) :
    (outsAt0 m c t.val t.isLt).1 (ix3 (0 : Fin 1) s q)
      = Cert.MLP.num (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b q := by
  have h0 : ¬t.val % 8 = 0 := by omega
  rw [out_C m c t h0 h1]
  refine (Cert.MLP.Pay.pay3_apply (outsAt0 m c t.val t.isLt).2 (iblk m c 4 t) (iblk m c 5 t) (iblk m c 6 t) (iblk m c 7 t) s q).trans ?_
  unfold Cert.MLP.num
  refine Finset.sum_congr rfl fun p _ => ?_
  rw [Cert.MLP.Blk.blk7_apply m c t b hb p, Cert.MLP.Blk.blk6_apply m c t q]
  unfold Cert.MLP.r
  refine congrArg (fun z => (z + _) * _) (Finset.sum_congr rfl fun cc _ => ?_)
  rw [acc_last m c t h1 b hb p cc, Cert.MLP.Blk.blk4_apply m c t cc, Cert.MLP.Blk.blk5_apply m c t cc q]
  rfl

end Cert.MLP.Acc

end
-- ==== Proof.OutArray.lean ====
import proofs.«180502_j38087769981504_2_alg».proof.Proof.Accum
import Idealize.ShloMosaic.Lib.Pipeline.Value

noncomputable section

namespace Cert.MLP.Out

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- What the region's result array [64, 8, 1024] ends holding: at (b, s, q) the masked sum of batch b at feature q,
    whatever the row s. -/
def G11 (c : Dev nD) : Buf (Elt Ideal) ((c : Thread nD τ).loc main_v11) := fun i =>
  Cert.MLP.num (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨(i 0).val, (i 0).isLt⟩ ⟨(i 2).val, (i 2).isLt⟩

theorem G11_apply (c : Dev nD) (b : Fin 64) (s : Fin 8) (q : Fin 1024) :
    (G11 m c : S64x8x1024.Idx → EReal) (ix3 b s q) = Cert.MLP.num (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b q := rfl

/-- The output window's block index at grid point t: the batch t / 8 on the first axis, zero on the other two,
    decided once over the grid. -/
theorem out_index : ∀ t : Fin cfg0.N, win0_8.index t (0 : Fin 3) = t.val / 8 ∧ win0_8.index t (1 : Fin 3) = 0
    ∧ win0_8.index t (2 : Fin 3) = 0 :=
  (by decide +kernel : ∀ t : Fin grid0.N, _)

/-- The point that finishes batch b writes back the block (b, 0..8, 0..1024) of that function, -/
theorem flushed_eq (c : Dev nD) (t : Fin cfg0.N) (hf : (cfg0.win 8).flush t = true) :
    (dats m 0 c).flushed 8 t = ((cfg0.win 8).blk t).view.read (Elt Ideal) (G11 m c) := by
  have hN : cfg0.N = 512 := N_0
  have h7 : t.val % 8 = 7 := (flush0_8 t).mp hf
  have ht : t.val < 512 := lt_of_lt_of_eq t.isLt hN
  obtain ⟨e0, e1, e2⟩ := out_index t
  show (cfg0.win 8).cut (grid0.coords t) ((dats m 0 c).after 8 t) = _
  rw [after0_8]
  funext y
  obtain ⟨u, s, q, rfl⟩ : ∃ (u : Fin 1) (s : Fin 8) (q : Fin 1024), y = ix3 u s q := ⟨y 0, y 1, y 2, eq_ix3 y⟩
  obtain rfl : u = 0 := Subsingleton.elim _ _
  show (outsAt0 m c t.val t.isLt).1 (ix3 (0 : Fin 1) s q) = (G11 m c : S64x8x1024.Idx → EReal) (((cfg0.win 8).blk t).view.emb (ix3 (0 : Fin 1) s q))
  have hemb : ((cfg0.win 8).blk t).view.emb (ix3 (0 : Fin 1) s q) = (ix3 (⟨t.val / 8, by omega⟩ : Fin 64) s q : S64x8x1024.Idx) := by
    funext a; apply Fin.ext
    match a with
    | ⟨0, _⟩ => show win0_8.index t (0 : Fin 3) * 1 + 1 * 0 = t.val / 8; omega
    | ⟨1, _⟩ => show win0_8.index t (1 : Fin 3) * 8 + 1 * s.val = s.val; omega
    | ⟨2, _⟩ => show win0_8.index t (2 : Fin 3) * 1024 + 1 * q.val = q.val; omega
  rw [hemb, G11_apply]
  exact Cert.MLP.Acc.out_apply m c t h7 ⟨t.val / 8, by omega⟩ rfl s q

/-- every entry of the array lies in the block of the point 8·b + 7 of its batch, -/
theorem cover (i : S64x8x1024.Idx) : ∃ t : Fin cfg0.N, (cfg0.win 8).flush t = true ∧ i ∈ ((cfg0.win 8).blk t).view.set := by
  have hN : cfg0.N = 512 := N_0
  have h0 : (i 0).val < 64 := (i 0).isLt
  have h1 : (i 1).val < 8 := (i 1).isLt
  have h2 : (i 2).val < 1024 := (i 2).isLt
  obtain ⟨t, ht⟩ : ∃ t : Fin cfg0.N, t.val = 8 * (i 0).val + 7 := ⟨⟨8 * (i 0).val + 7, by rw [hN]; omega⟩, rfl⟩
  obtain ⟨e0, e1, e2⟩ := out_index t
  refine ⟨t, (flush0_8 t).mpr (by omega), ?_⟩
  show i ∈ ((View.whole main_v11).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 8 ≤ (i 1).val ∧ (i 1).val < win0_8.index t (1 : Fin 3) * 8 + 8; omega
  | ⟨2, _⟩ => show win0_8.index t (2 : Fin 3) * 1024 ≤ (i 2).val ∧ (i 2).val < win0_8.index t (2 : Fin 3) * 1024 + 1024; omega

/-- so the array ends holding it. -/
theorem final_out (c : Dev nD) : (dats m 0 c).arrAt 8 cfg0.N = G11 m c :=
  (dats m 0 c).arrAt_eq_of_cover 8 (G11 m c) (flushed_eq m c) cover

end Cert.MLP.Out

end
-- ==== Proof.HostTail.lean ====
import proofs.«180502_j38087769981504_2_alg».proof.Proof.Gen.KernelIdeal.Frame
import proofs.«180502_j38087769981504_2_alg».proof.Proof.Spec
import Idealize.ShloMosaic.Lib.ValueLayout
import Idealize.ShloMosaic.Lib.Pipeline.Value
import Idealize.ShloMosaic.Lib.StableHlo.Run
import Idealize.ShloMosaic.PureOps.Ideal.Laws

noncomputable section

namespace Cert.MLP.Tail

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The operations after the region as one term of the two arrays they read: the region's result `A` and the mask `M`.
    Row 0 of `A`'s middle axis, at shape [64, 1024], divided by the count of mask bits of the batch clipped below at one. -/
def tailTerm (A : (⟨S64x8x1024, .f32⟩ : BufTy).Contents (Elt Ideal)) (M : (⟨S64x512, .i1⟩ : BufTy).Contents (Elt Ideal)) :
    (⟨S64x1024, .f32⟩ : BufTy).Contents (Elt Ideal) :=
  Host.divf (F := Ideal)
    (shapeCast S64x1024 (extractStridedSlice S64x1x1024 ![0, 0, 0] A slices_S64x8x1024_S64x1x1024_0_0_0)
      shapeCasts_S64x1x1024_S64x1024)
    (broadcastInDim S64x1024 ![0, 1] bcast_S64x1_S64x1024_0_1
      (maximumf (F := Ideal)
        (broadcastInDim S64x1 ![0] bcast_S64_S64x1_0
          (Host.reduceAdd (F := Ideal) (uitofp (F := Ideal) .f32 M) (constant (F := Ideal) S_ .f32 0x00000000#32)
            reducesTo_S64x512_S64_d1 h_S_))
        (broadcastInDim S64x1 ![] bcast_S_S64x1 (constant (F := Ideal) S_ .f32 0x3F800000#32))))

/-- The tail's result, as a whole array, is that term of the region's result and of the mask as launched: the tail reads
    the region's result array where the region left it, and the mask where no operation has written it. -/
theorem tail_whole (c : Dev nD) (A : Buf (Elt Ideal) ((c : Thread nD τ).loc main_v11))
    (hA : (dats m 0 c).arrAt 8 cfg0.N = A) :
    Pipeline.afterTail₀ cfgs (dats m) 0 (V0 m) [hostOps1] c main_v20
      = tailTerm A (m ((c : Thread nD τ).loc main_arg2)) := by
  unfold Pipeline.afterTail₀
  show StableHlo.after hostOps1 _ (Proc.devRef .tc main_v20) = _
  after_results
  have e11 : Pipeline.withArrays (cfgs 0).spec c (V0 m c) (fun w => (dats m 0 c).arrAt w (cfgs 0).N)
      (Proc.devRef .tc main_v11) = A :=
    (Pipeline.withArrays_arr spec0 launch0.win.arr_inj c _ _ 8).trans hA
  have e2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [e11, e2]
  rfl

/-- The term read at batch `b` and feature `q`: the slice and the reshape pick `A` at (b, 0, q); the broadcasts pick the
    batch's clipped count, which is the specification's `cnt`. -/
theorem tailTerm_apply (A : (⟨S64x8x1024, .f32⟩ : BufTy).Contents (Elt Ideal)) (M : (⟨S64x512, .i1⟩ : BufTy).Contents (Elt Ideal))
    (b : Fin 64) (q : Fin 1024) :
    (tailTerm A M : S64x1024.Idx → EReal) (ix2 b q)
      = Ideal.div ((A : S64x8x1024.Idx → EReal) (ix3 b (0 : Fin 8) q)) (Cert.MLP.cnt M b) := by
  unfold tailTerm
  have hnum : (shapeCast S64x1024 (extractStridedSlice S64x1x1024 ![0, 0, 0] A slices_S64x8x1024_S64x1x1024_0_0_0)
      shapeCasts_S64x1x1024_S64x1024 : S64x1024.Idx → EReal) (ix2 b q) = (A : S64x8x1024.Idx → EReal) (ix3 b (0 : Fin 8) q) := by
    refine (shapeCast_apply _ shapeCasts_S64x1x1024_S64x1024 (ix2 b q) (ix3 b (0 : Fin 1) q) ?_).trans ?_
    · rw [Shape.rowMajor_val_three, Shape.rowMajor_val_two]
      show (b.val * 1 + 0) * 1024 + q.val = b.val * 1024 + q.val
      omega
    · exact slice3_axis1_apply 0 A slices_S64x8x1024_S64x1x1024_0_0_0 b (0 : Fin 1) q (0 : Fin 8) rfl
  have hden : (broadcastInDim S64x1024 ![0, 1] bcast_S64x1_S64x1024_0_1
      (maximumf (F := Ideal)
        (broadcastInDim S64x1 ![0] bcast_S64_S64x1_0
          (Host.reduceAdd (F := Ideal) (uitofp (F := Ideal) .f32 M) (constant (F := Ideal) S_ .f32 0x00000000#32)
            reducesTo_S64x512_S64_d1 h_S_))
        (broadcastInDim S64x1 ![] bcast_S_S64x1 (constant (F := Ideal) S_ .f32 0x3F800000#32))) : S64x1024.Idx → EReal) (ix2 b q)
      = Cert.MLP.cnt M b := by
    refine (broadcastInDim_apply _ bcast_S64x1_S64x1024_0_1 _ (ix2 b q) (ix2 b (0 : Fin 1)) (fun a => match a with
      | ⟨0, _⟩ => by show b.val = if (64 : Nat) = 1 then 0 else b.val; rw [if_neg (by decide)]
      | ⟨1, _⟩ => by show 0 = if (1 : Nat) = 1 then 0 else q.val; rw [if_pos rfl])).trans ?_
    -- the clip is the maximum, coordinate by coordinate
    show max _ _ = max _ _
    refine congrArg₂ max ?_ ?_
    · -- the count: the broadcast of the row sums read at (b, 0) is the sum of row b
      refine (broadcastInDim_apply _ bcast_S64_S64x1_0 _ (ix2 b (0 : Fin 1)) (ix1 b) (fun a => match a with
        | ⟨0, _⟩ => by show b.val = if (64 : Nat) = 1 then 0 else b.val; rw [if_neg (by decide)])).trans ?_
      simp only [Host.reduceAdd, Ideal.hostReduceAdd_def]
      rw [Ideal.hostReduceAdd_single reducesTo_S64x512_S64_d1 (by decide)]
      refine congrArg (_ + ·) (Finset.sum_congr rfl fun k _ => ?_)
      exact congrArg (fun i => FloatOps.uitofp (F := Ideal) .f32 (M i))
        (funext fun a => Fin.ext (by match a with | ⟨0, _⟩ => rfl | ⟨1, _⟩ => rfl))
    · -- the broadcast of the constant one
      exact broadcastInDim_apply _ bcast_S_S64x1 _ (ix2 b (0 : Fin 1)) (fun a => a.elim0) (fun a => a.elim0)
  show Ideal.div _ _ = _
  exact congrArg₂ Ideal.div hnum hden

/-- After the region: row 0 of each batch's 8 identical rows is divided by the batch's count of unmasked tokens. -/
theorem tail_eq (c : Dev nD) (A : Buf (Elt Ideal) ((c : Thread nD τ).loc main_v11))
    (hA : (dats m 0 c).arrAt 8 cfg0.N = A) (b : Fin 64) (q : Fin 1024) :
    (Pipeline.afterTail₀ cfgs (dats m) 0 (V0 m) [hostOps1] c main_v20 : S64x1024.Idx → EReal) (ix2 b q)
      = Ideal.div ((A : S64x8x1024.Idx → EReal) (ix3 b (0 : Fin 8) q)) (Cert.MLP.cnt (m ((c : Thread nD τ).loc main_arg2)) b) := by
  rw [tail_whole m c A hA]
  exact tailTerm_apply A (m ((c : Thread nD τ).loc main_arg2)) b q

end Cert.MLP.Tail

end
-- ==== Proof.KRun.lean ====
/-
  The idealized kernel program's run, read: its result is the masked mean.

  The region leaves the masked sums in its result array (each batch's sum in all 8 rows of the batch's block); the
  host operations after the region take row 0 and divide by the batch's token count. The arguments end unchanged.
-/
import proofs.«180502_j38087769981504_2_alg».proof.Proof.OutArray
import proofs.«180502_j38087769981504_2_alg».proof.Proof.HostTail

noncomputable section

namespace Cert.MLP.KRun

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The program's result buffer after the host operations that follow the region. -/
theorem result_eq (c : Dev nD) :
    Pipeline.afterTail₀ cfgs (dats m) 0 (V0 m) [hostOps1] c main_v20
      = Cert.MLP.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨b, q, rfl⟩ : ∃ (b : Fin 64) (q : Fin 1024), i = ix2 b q := ⟨i 0, i 1, eq_ix2 i⟩
  rw [Cert.MLP.G_apply]
  refine (Cert.MLP.Tail.tail_eq m c (Cert.MLP.Out.G11 m c) (Cert.MLP.Out.final_out m c) b q).trans ?_
  rw [Cert.MLP.Out.G11_apply]

/-- Every weakly fair execution ends with the result at the masked mean and the arguments as launched. -/
theorem run : θ_run defs (onTc (τ := τ) (main (F := Ideal))) ⟨m, fun _ => 0, ρ⟩ fun r => ∀ c : Dev nD,
      r.2.mem ((c.tc : Thread nD τ).loc main_v20)
        = Cert.MLP.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.MLP.KRun

end
-- ==== Proof.RefIsSpec.lean ====
import proofs.«180502_j38087769981504_2_alg».proof.Proof.Gen.ReferenceIdeal.Read
import proofs.«180502_j38087769981504_2_alg».proof.Proof.Spec

noncomputable section

namespace Cert.MLP.Ref

open Idealize.ShloMosaic Idealize.ShloMosaic.ValueIdx Cert.ReferenceIdeal Cert.ReferenceIdeal.Read

section Layers

variable (x0 x1 : (⟨S64x512x128, .f32⟩ : BufTy).Contents (Elt Ideal)) (x2 : (⟨S64x512, .i1⟩ : BufTy).Contents (Elt Ideal))
    (x3 : (⟨S256x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (x7 : (⟨S4096x1024, .f32⟩ : BufTy).Contents (Elt Ideal)) (x8 : (⟨S1024, .f32⟩ : BufTy).Contents (Elt Ideal))

/-- The joined input at (b, n, d) is the row of token (b, n) at d: the first tensor below 128, the second from 128 on. -/
theorem cat_apply (b : Fin 64) (n : Fin 512) (d : Fin 256) :
    val_main_v0 (F := Ideal) x0 x1 (ix3 b n d) = Cert.MLP.row x0 x1 b n d := by
  unfold val_main_v0 Cert.MLP.row
  split
  · next h =>
    exact concatenate_pair_apply_left _ x0 x1 _ (ix3 b n d) rfl
      (ix3 b n ⟨d.val, h⟩) (fun a => by match a with | ⟨0, _⟩ => rfl | ⟨1, _⟩ => rfl | ⟨2, _⟩ => rfl)
  · next h =>
    exact concatenate_pair_apply_right _ x0 x1 _ (ix3 b n d) rfl rfl
      (ix3 b n ⟨d.val - 128, by have := d.isLt; omega⟩)
      (fun a ha => by
        match a, ha with
        | ⟨0, _⟩, _ => rfl
        | ⟨1, _⟩, _ => rfl
        | ⟨2, _⟩, ha => exact absurd rfl ha)
      (by show d.val - 128 + 128 = d.val; omega)

/-! The index functions of the three contractions, at an index given by coordinates. -/

theorem lidx1 (b : Fin 64) (n : Fin 512) (j : Fin 4096) (k : Fin 256) : lidx_main_v1 (ix3 b n j) k = ix3 b n k :=
  funext fun a => Fin.ext (by match a with | ⟨0, _⟩ => rfl | ⟨1, _⟩ => rfl | ⟨2, _⟩ => rfl)
theorem ridx1 (b : Fin 64) (n : Fin 512) (j : Fin 4096) (k : Fin 256) : ridx_main_v1 (ix3 b n j) k = ix2 k j :=
  funext fun a => Fin.ext (by match a with | ⟨0, _⟩ => rfl | ⟨1, _⟩ => rfl)
theorem lidx6 (b : Fin 64) (n : Fin 512) (c : Fin 4096) (k : Fin 4096) : lidx_main_v6 (ix3 b n c) k = ix3 b n k :=
  funext fun a => Fin.ext (by match a with | ⟨0, _⟩ => rfl | ⟨1, _⟩ => rfl | ⟨2, _⟩ => rfl)
theorem ridx6 (b : Fin 64) (n : Fin 512) (c : Fin 4096) (k : Fin 4096) : ridx_main_v6 (ix3 b n c) k = ix2 k c :=
  funext fun a => Fin.ext (by match a with | ⟨0, _⟩ => rfl | ⟨1, _⟩ => rfl)
theorem lidx11 (b : Fin 64) (n : Fin 512) (q : Fin 1024) (k : Fin 4096) : lidx_main_v11 (ix3 b n q) k = ix3 b n k :=
  funext fun a => Fin.ext (by match a with | ⟨0, _⟩ => rfl | ⟨1, _⟩ => rfl | ⟨2, _⟩ => rfl)
theorem ridx11 (b : Fin 64) (n : Fin 512) (q : Fin 1024) (k : Fin 4096) : ridx_main_v11 (ix3 b n q) k = ix2 k q :=
  funext fun a => Fin.ext (by match a with | ⟨0, _⟩ => rfl | ⟨1, _⟩ => rfl)

/-- The first layer's clipped value at (b, n, j). -/
theorem layer1 (b : Fin 64) (n : Fin 512) (j : Fin 4096) :
    val_main_v5 (F := Ideal) x0 x1 x3 x4 (ix3 b n j) = Cert.MLP.h1 x0 x1 x3 x4 b n j := by
  rw [val_main_v5_apply, val_main_v4_apply, val_main_v1_apply, val_main_v3_apply, val_main_v2_apply,
    val_main_call0_v0_apply, val_main_call0_cst_apply, Ideal.maximumf_def, Ideal.addf_def]
  unfold Cert.MLP.h1
  refine congrArg₂ max (congrArg₂ (· + ·) (Finset.sum_congr rfl fun k _ => ?_) ?_) rfl
  · rw [lidx1, ridx1, cat_apply]
  · exact congrArg x4 (funext fun a => Fin.ext (by match a with | ⟨0, _⟩ => rfl))

/-- The second layer's clipped value at (b, n, c). -/
theorem layer2 (b : Fin 64) (n : Fin 512) (c : Fin 4096) :
    val_main_v10 (F := Ideal) x0 x1 x3 x4 x5 x6 (ix3 b n c) = Cert.MLP.h2 x0 x1 x3 x4 x5 x6 b n c := by
  rw [val_main_v10_apply, val_main_v9_apply, val_main_v6_apply, val_main_v8_apply, val_main_v7_apply,
    val_main_call1_v0_apply, val_main_call1_cst_apply, Ideal.maximumf_def, Ideal.addf_def]
  unfold Cert.MLP.h2
  refine congrArg₂ max (congrArg₂ (· + ·) (Finset.sum_congr rfl fun k _ => ?_) ?_) rfl
  · rw [lidx6, ridx6, layer1]
  · exact congrArg x6 (funext fun a => Fin.ext (by match a with | ⟨0, _⟩ => rfl))

/-- The third layer's value at (b, n, q). -/
theorem layer3 (b : Fin 64) (n : Fin 512) (q : Fin 1024) :
    val_main_v14 (F := Ideal) x0 x1 x3 x4 x5 x6 x7 x8 (ix3 b n q) = Cert.MLP.r x0 x1 x3 x4 x5 x6 x7 x8 b n q := by
  rw [val_main_v14_apply, val_main_v11_apply, val_main_v13_apply, val_main_v12_apply, Ideal.addf_def]
  unfold Cert.MLP.r
  refine congrArg₂ (· + ·) (Finset.sum_congr rfl fun k _ => ?_) ?_
  · rw [lidx11, ridx11, layer2]
  · exact congrArg x8 (funext fun a => Fin.ext (by match a with | ⟨0, _⟩ => rfl))

/-- The mask bit as a number, spread along the feature axis, at (b, n, q). -/
theorem mask_spread (b : Fin 64) (n : Fin 512) (q : Fin 1024) :
    val_main_v20 (F := Ideal) x2 (ix3 b n q) = Cert.MLP.mf x2 b n := by
  rw [val_main_v20_apply, val_main_v16_apply, val_main_v15_apply]
  unfold Cert.MLP.mf
  exact congrArg (fun i => FloatOps.uitofp (F := Ideal) .f32 (x2 i))
    (funext fun a => Fin.ext (by match a with | ⟨0, _⟩ => rfl | ⟨1, _⟩ => rfl))

/-- The mask bit as a number, with a trailing unit axis, at (b, n, u) for the one coordinate u of that axis. -/
theorem mask_unit (b : Fin 64) (n : Fin 512) (u : Fin 1) :
    val_main_v16 (F := Ideal) x2 (ix3 b n u) = Cert.MLP.mf x2 b n := by
  rw [val_main_v16_apply, val_main_v15_apply]
  unfold Cert.MLP.mf
  exact congrArg (fun i => FloatOps.uitofp (F := Ideal) .f32 (x2 i))
    (funext fun a => Fin.ext (by match a with | ⟨0, _⟩ => rfl | ⟨1, _⟩ => rfl))

/-- The masked sum over the tokens at (b, q): the initial zero word adds nothing. -/
theorem masked_sum (b : Fin 64) (q : Fin 1024) :
    val_main_v22 (F := Ideal) x0 x1 x2 x3 x4 x5 x6 x7 x8 (ix2 b q) = Cert.MLP.num x0 x1 x2 x3 x4 x5 x6 x7 x8 b q := by
  rw [val_main_v22_apply, val_main_cst_1_apply, Ideal.ofBits_def, Ideal.ofBits_zero_f32, zero_add]
  unfold Cert.MLP.num
  refine Finset.sum_congr rfl fun k _ => ?_
  have e : idx_main_v22 (ix2 b q) k = ix3 b k q :=
    funext fun a => Fin.ext (by match a with | ⟨0, _⟩ => rfl | ⟨1, _⟩ => rfl | ⟨2, _⟩ => rfl)
  rw [e, val_main_v21_apply, Ideal.mulf_def, layer3, mask_spread]

/-- The token count at (b, ·), at least one. -/
theorem count (b : Fin 64) (q : Fin 1024) :
    val_main_v23 (F := Ideal) x2 (ix2 b q) = Cert.MLP.cnt x2 b := by
  rw [val_main_v23_apply, val_main_v19_apply, val_main_v17_apply, val_main_v18_apply, val_main_cst_0_apply,
    val_main_cst_apply, Ideal.maximumf_def]
  unfold Cert.MLP.cnt
  refine congrArg₂ max (congrArg₂ (· + ·) rfl (Finset.sum_congr rfl fun k _ => ?_)) rfl
  have e : idx_main_v17 (idx_main_v23 (ix2 b q)) k = ix3 b k (0 : Fin 1) :=
    funext fun a => Fin.ext (by match a with | ⟨0, _⟩ => rfl | ⟨1, _⟩ => rfl | ⟨2, _⟩ => rfl)
  rw [e, mask_unit]

end Layers

/-- The reference's last stage is the masked mean of the three-layer network, entry by entry. -/
theorem ref_eq (x0 x1 : (⟨S64x512x128, .f32⟩ : BufTy).Contents (Elt Ideal)) (x2 : (⟨S64x512, .i1⟩ : BufTy).Contents (Elt Ideal))
    (x3 : (⟨S256x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (x7 : (⟨S4096x1024, .f32⟩ : BufTy).Contents (Elt Ideal)) (x8 : (⟨S1024, .f32⟩ : BufTy).Contents (Elt Ideal)) :
    val_main_v24 (F := Ideal) x0 x1 x2 x3 x4 x5 x6 x7 x8 = Cert.MLP.G x0 x1 x2 x3 x4 x5 x6 x7 x8 := by
  funext i
  obtain ⟨b, q, rfl⟩ : ∃ (b : Fin 64) (q : Fin 1024), i = ix2 b q := ⟨i 0, i 1, eq_ix2 i⟩
  rw [Cert.MLP.G_apply, val_main_v24_apply, Ideal.hostDivf_def, masked_sum, count]

end Cert.MLP.Ref

end
-- ==== Proof.lean ====
/-
  The certificate: a fused three-layer perceptron with a masked mean over tokens, against its plain reference.

  For each batch b and token n the kernel forms the row x[b,n,·] ++ y[b,n,·], applies three dense layers (the first
  two clipped at zero), multiplies by the token's mask bit, sums over the batch's 512 tokens and divides by the
  number of unmasked tokens (at least one). The kernel contracts the second layer in 8 blocks of 512 hidden units,
  one grid step each, adding the blocks' shares into an accumulator that starts at zero, and computes each batch's
  masked sum in the last of its 8 steps; the reference contracts each layer at once. Read on the extended reals,
  where a change of float format is the identity and every operation is exact, the two are the same function
  (Proof/Spec.lean): a sum taken block by block is the sum, because addition of extended reals is associative and
  commutative, and nothing else is rearranged — so the proof never needs the inputs to be finite.

  Proof/Pieces.lean reads what each case of the kernel body leaves in its buffers; Proof/PayloadReads.lean reads the
  body's three stored values at an index; Proof/BlockReads.lean reads the input windows' blocks as entries of the
  arguments; Proof/Accum.lean follows the accumulator through a batch's 8 steps and reads the batch's output block;
  Proof/OutArray.lean assembles the region's result array; Proof/HostTail.lean reads the host operations after the
  region; Proof/KRun.lean states the idealized kernel's run; Proof/RefIsSpec.lean identifies the reference's run
  with the specification. The frames are the generated ones; the ideal pass rewrote nothing, so the idealization
  claim is trivial.
-/
import proofs.«180502_j38087769981504_2_alg».proof.Defs
import proofs.«180502_j38087769981504_2_alg».proof.Proof.Gen.Kernel
import proofs.«180502_j38087769981504_2_alg».proof.Proof.Gen.Kernel.Frame
import proofs.«180502_j38087769981504_2_alg».proof.Proof.Gen.KernelIdeal
import proofs.«180502_j38087769981504_2_alg».proof.Proof.Gen.KernelIdeal.Frame
import proofs.«180502_j38087769981504_2_alg».proof.Proof.Gen.ReferenceIdeal
import proofs.«180502_j38087769981504_2_alg».proof.Proof.Gen.ReferenceIdeal.Run
import proofs.«180502_j38087769981504_2_alg».proof.Proof.Gen.ReferenceIdeal.Read
import proofs.«180502_j38087769981504_2_alg».proof.Proof.Gen.Pre_finite_inputs
import proofs.«180502_j38087769981504_2_alg».proof.Proof.KRun
import proofs.«180502_j38087769981504_2_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the masked mean of arguments that agree. -/
theorem algebraic : Cert.algebraic_KernelIdeal_ReferenceIdeal := by
  intro m ρ m' ρ' _ hagree
  refine ⟨fun c => Cert.MLP.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.MLP.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.MLP.Ref.ref_eq, (hagree c).1, (hagree c).2.1, (hagree c).2.2.1,
    (hagree c).2.2.2.1, (hagree c).2.2.2.2.1, (hagree c).2.2.2.2.2.1, (hagree c).2.2.2.2.2.2.1,
    (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
